-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S1x1 : Shape := ⟨2, ![1, 1]⟩
abbrev S256x7x7x30 : Shape := ⟨4, ![256, 7, 7, 30]⟩
abbrev S256x7x7x1 : Shape := ⟨4, ![256, 7, 7, 1]⟩
abbrev S256x7x7 : Shape := ⟨3, ![256, 7, 7]⟩
abbrev S256x7x7x4 : Shape := ⟨4, ![256, 7, 7, 4]⟩
abbrev S256x7x7x2 : Shape := ⟨4, ![256, 7, 7, 2]⟩
abbrev S256x7x7x20 : Shape := ⟨4, ![256, 7, 7, 20]⟩
abbrev S256x7 : Shape := ⟨2, ![256, 7]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S1x1, .f32⟩
  | .hbm, ⟨3, _⟩ => ⟨S_, .f32⟩
  | .local _ .vmem, ⟨0, _⟩ => ⟨S256x7x7x30, .f32⟩
  | .local _ .vmem, ⟨1, _⟩ => ⟨S256x7x7x30, .f32⟩
  | .local _ .vmem, ⟨2, _⟩ => ⟨S256x7x7x30, .f32⟩
  | .local _ .vmem, ⟨3, _⟩ => ⟨S256x7x7x30, .f32⟩
  | .local _ .vmem, ⟨4, _⟩ => ⟨S1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S256x7x7x30_S256x7x7x30_0_0_0_0 : ∀ a, (![0, 0, 0, 0] : Fin 4 → Nat) a + S256x7x7x30.size a ≤ S256x7x7x30.size a
  h_S256x7x7x30 : 0 < S256x7x7x30.numel
  slices_S256x7x7x30_o0_0_0_4_S256x7x7x1 : S256x7x7x30.Slices ![0, 0, 0, 4] S256x7x7x1
  shapeCasts_S256x7x7x1_S256x7x7 : S256x7x7x1.ShapeCasts S256x7x7
  slices_S256x7x7x30_o0_0_0_0_S256x7x7x4 : S256x7x7x30.Slices ![0, 0, 0, 0] S256x7x7x4
  slices_S256x7x7x4_o0_0_0_0_S256x7x7x1 : S256x7x7x4.Slices ![0, 0, 0, 0] S256x7x7x1
  slices_S256x7x7x4_o0_0_0_2_S256x7x7x1 : S256x7x7x4.Slices ![0, 0, 0, 2] S256x7x7x1
  slices_S256x7x7x4_o0_0_0_1_S256x7x7x1 : S256x7x7x4.Slices ![0, 0, 0, 1] S256x7x7x1
  slices_S256x7x7x4_o0_0_0_3_S256x7x7x1 : S256x7x7x4.Slices ![0, 0, 0, 3] S256x7x7x1
  slices_S256x7x7x30_o0_0_0_5_S256x7x7x4 : S256x7x7x30.Slices ![0, 0, 0, 5] S256x7x7x4
  slices_S256x7x7x30_o0_0_0_0_S256x7x7x2 : S256x7x7x30.Slices ![0, 0, 0, 0] S256x7x7x2
  reduces_S256x7x7x2_S256x7x7 : S256x7x7x2.Reduces [3] S256x7x7
  slices_S256x7x7x30_o0_0_0_5_S256x7x7x2 : S256x7x7x30.Slices ![0, 0, 0, 5] S256x7x7x2
  slices_S256x7x7x30_o0_0_0_2_S256x7x7x2 : S256x7x7x30.Slices ![0, 0, 0, 2] S256x7x7x2
  slices_S256x7x7x30_o0_0_0_7_S256x7x7x2 : S256x7x7x30.Slices ![0, 0, 0, 7] S256x7x7x2
  slices_S256x7x7x30_o0_0_0_9_S256x7x7x1 : S256x7x7x30.Slices ![0, 0, 0, 9] S256x7x7x1
  slices_S256x7x7x30_o0_0_0_10_S256x7x7x20 : S256x7x7x30.Slices ![0, 0, 0, 10] S256x7x7x20
  reduces_S256x7x7x20_S256x7x7 : S256x7x7x20.Reduces [3] S256x7x7
  reduces_S256x7x7_S256x7 : S256x7x7.Reduces [2] S256x7
  reduces_S256x7_S256 : S256x7.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x7x7x30.size a ≤ S16384x7x7x30.size a
  hwx0_0 : ∀ i : grid0.Coords, EltTy.bits .f32 = 32 ∨ (Rect.block (s := S16384x7x7x30) S256x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7x7x30.size a ≤ S16384x7x7x30.size a
  hwx0_1 : ∀ i : grid0.Coords, EltTy.bits .f32 = 32 ∨ (Rect.block (s := S16384x7x7x30) S256x7x7x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 278
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7x4, .f32⟩
  | 8 => ⟨S16384x7x7x4, .f32⟩
  | 9 => ⟨S16384x7x7x1, .f32⟩
  | 10 => ⟨S16384x7x7, .f32⟩
  | 11 => ⟨S16384x7x7x1, .f32⟩
  | 12 => ⟨S16384x7x7, .f32⟩
  | 13 => ⟨S_, .f32⟩
  | 14 => ⟨S16384x7x7, .f32⟩
  | 15 => ⟨S16384x7x7, .f32⟩
  | 16 => ⟨S16384x7x7, .f32⟩
  | 17 => ⟨S16384x7x7x1, .f32⟩
  | 18 => ⟨S16384x7x7, .f32⟩
  | 19 => ⟨S16384x7x7x1, .f32⟩
  | 20 => ⟨S16384x7x7, .f32⟩
  | 21 => ⟨S_, .f32⟩
  | 22 => ⟨S16384x7x7, .f32⟩
  | 23 => ⟨S16384x7x7, .f32⟩
  | 24 => ⟨S16384x7x7, .f32⟩
  | 25 => ⟨S16384x7x7x1, .f32⟩
  | 26 => ⟨S16384x7x7, .f32⟩
  | 27 => ⟨S16384x7x7x1, .f32⟩
  | 28 => ⟨S16384x7x7, .f32⟩
  | 29 => ⟨S_, .f32⟩
  | 30 => ⟨S16384x7x7, .f32⟩
  | 31 => ⟨S16384x7x7, .f32⟩
  | 32 => ⟨S16384x7x7, .f32⟩
  | 33 => ⟨S16384x7x7x1, .f32⟩
  | 34 => ⟨S16384x7x7, .f32⟩
  | 35 => ⟨S16384x7x7x1, .f32⟩
  | 36 => ⟨S16384x7x7, .f32⟩
  | 37 => ⟨S_, .f32⟩
  | 38 => ⟨S16384x7x7, .f32⟩
  | 39 => ⟨S16384x7x7, .f32⟩
  | 40 => ⟨S16384x7x7, .f32⟩
  | 41 => ⟨S16384x7x7x1, .f32⟩
  | 42 => ⟨S16384x7x7, .f32⟩
  | 43 => ⟨S16384x7x7x1, .f32⟩
  | 44 => ⟨S16384x7x7, .f32⟩
  | 45 => ⟨S_, .f32⟩
  | 46 => ⟨S16384x7x7, .f32⟩
  | 47 => ⟨S16384x7x7, .f32⟩
  | 48 => ⟨S16384x7x7, .f32⟩
  | 49 => ⟨S16384x7x7x1, .f32⟩
  | 50 => ⟨S16384x7x7, .f32⟩
  | 51 => ⟨S16384x7x7x1, .f32⟩
  | 52 => ⟨S16384x7x7, .f32⟩
  | 53 => ⟨S_, .f32⟩
  | 54 => ⟨S16384x7x7, .f32⟩
  | 55 => ⟨S16384x7x7, .f32⟩
  | 56 => ⟨S16384x7x7, .f32⟩
  | 57 => ⟨S16384x7x7x1, .f32⟩
  | 58 => ⟨S16384x7x7, .f32⟩
  | 59 => ⟨S16384x7x7x1, .f32⟩
  | 60 => ⟨S16384x7x7, .f32⟩
  | 61 => ⟨S_, .f32⟩
  | 62 => ⟨S16384x7x7, .f32⟩
  | 63 => ⟨S16384x7x7, .f32⟩
  | 64 => ⟨S16384x7x7, .f32⟩
  | 65 => ⟨S16384x7x7x1, .f32⟩
  | 66 => ⟨S16384x7x7, .f32⟩
  | 67 => ⟨S16384x7x7x1, .f32⟩
  | 68 => ⟨S16384x7x7, .f32⟩
  | 69 => ⟨S_, .f32⟩
  | 70 => ⟨S16384x7x7, .f32⟩
  | 71 => ⟨S16384x7x7, .f32⟩
  | 72 => ⟨S16384x7x7, .f32⟩
  | 73 => ⟨S16384x7x7, .f32⟩
  | 74 => ⟨S16384x7x7, .f32⟩
  | 75 => ⟨S16384x7x7, .f32⟩
  | 76 => ⟨S_, .f32⟩
  | 77 => ⟨S_, .f32⟩
  | 78 => ⟨S16384x7x7, .f32⟩
  | 79 => ⟨S16384x7x7, .f32⟩
  | 80 => ⟨S16384x7x7, .f32⟩
  | 81 => ⟨S16384x7x7, .f32⟩
  | 82 => ⟨S16384x7x7, .f32⟩
  | 83 => ⟨S_, .f32⟩
  | 84 => ⟨S_, .f32⟩
  | 85 => ⟨S16384x7x7, .f32⟩
  | 86 => ⟨S16384x7x7, .f32⟩
  | 87 => ⟨S16384x7x7, .f32⟩
  | 88 => ⟨S16384x7x7x1, .f32⟩
  | 89 => ⟨S16384x7x7, .f32⟩
  | 90 => ⟨S16384x7x7x1, .f32⟩
  | 91 => ⟨S16384x7x7, .f32⟩
  | 92 => ⟨S16384x7x7, .f32⟩
  | 93 => ⟨S16384x7x7x1, .f32⟩
  | 94 => ⟨S16384x7x7, .f32⟩
  | 95 => ⟨S16384x7x7x1, .f32⟩
  | 96 => ⟨S16384x7x7, .f32⟩
  | 97 => ⟨S16384x7x7, .f32⟩
  | 98 => ⟨S16384x7x7, .f32⟩
  | 99 => ⟨S16384x7x7, .f32⟩
  | 100 => ⟨S_, .f32⟩
  | 101 => ⟨S16384x7x7, .f32⟩
  | 102 => ⟨S16384x7x7, .f32⟩
  | 103 => ⟨S16384x7x7, .f32⟩
  | 104 => ⟨S16384x7x7x4, .f32⟩
  | 105 => ⟨S16384x7x7x1, .f32⟩
  | 106 => ⟨S16384x7x7, .f32⟩
  | 107 => ⟨S16384x7x7x1, .f32⟩
  | 108 => ⟨S16384x7x7, .f32⟩
  | 109 => ⟨S_, .f32⟩
  | 110 => ⟨S16384x7x7, .f32⟩
  | 111 => ⟨S16384x7x7, .f32⟩
  | 112 => ⟨S16384x7x7, .f32⟩
  | 113 => ⟨S16384x7x7x1, .f32⟩
  | 114 => ⟨S16384x7x7, .f32⟩
  | 115 => ⟨S16384x7x7x1, .f32⟩
  | 116 => ⟨S16384x7x7, .f32⟩
  | 117 => ⟨S_, .f32⟩
  | 118 => ⟨S16384x7x7, .f32⟩
  | 119 => ⟨S16384x7x7, .f32⟩
  | 120 => ⟨S16384x7x7, .f32⟩
  | 121 => ⟨S16384x7x7x1, .f32⟩
  | 122 => ⟨S16384x7x7, .f32⟩
  | 123 => ⟨S16384x7x7x1, .f32⟩
  | 124 => ⟨S16384x7x7, .f32⟩
  | 125 => ⟨S_, .f32⟩
  | 126 => ⟨S16384x7x7, .f32⟩
  | 127 => ⟨S16384x7x7, .f32⟩
  | _ => ⟨S16384x7x7x30, .f32⟩

abbrev hbmTy0_1 (i : Nat) : BufTy := match i % 128 with
  | 0 => ⟨S16384x7x7, .f32⟩
  | 1 => ⟨S16384x7x7x1, .f32⟩
  | 2 => ⟨S16384x7x7, .f32⟩
  | 3 => ⟨S16384x7x7x1, .f32⟩
  | 4 => ⟨S16384x7x7, .f32⟩
  | 5 => ⟨S_, .f32⟩
  | 6 => ⟨S16384x7x7, .f32⟩
  | 7 => ⟨S16384x7x7, .f32⟩
  | 8 => ⟨S16384x7x7, .f32⟩
  | 9 => ⟨S16384x7x7x1, .f32⟩
  | 10 => ⟨S16384x7x7, .f32⟩
  | 11 => ⟨S16384x7x7x1, .f32⟩
  | 12 => ⟨S16384x7x7, .f32⟩
  | 13 => ⟨S_, .f32⟩
  | 14 => ⟨S16384x7x7, .f32⟩
  | 15 => ⟨S16384x7x7, .f32⟩
  | 16 => ⟨S16384x7x7, .f32⟩
  | 17 => ⟨S16384x7x7x1, .f32⟩
  | 18 => ⟨S16384x7x7, .f32⟩
  | 19 => ⟨S16384x7x7x1, .f32⟩
  | 20 => ⟨S16384x7x7, .f32⟩
  | 21 => ⟨S_, .f32⟩
  | 22 => ⟨S16384x7x7, .f32⟩
  | 23 => ⟨S16384x7x7, .f32⟩
  | 24 => ⟨S16384x7x7, .f32⟩
  | 25 => ⟨S16384x7x7x1, .f32⟩
  | 26 => ⟨S16384x7x7, .f32⟩
  | 27 => ⟨S16384x7x7x1, .f32⟩
  | 28 => ⟨S16384x7x7, .f32⟩
  | 29 => ⟨S_, .f32⟩
  | 30 => ⟨S16384x7x7, .f32⟩
  | 31 => ⟨S16384x7x7, .f32⟩
  | 32 => ⟨S16384x7x7, .f32⟩
  | 33 => ⟨S16384x7x7x1, .f32⟩
  | 34 => ⟨S16384x7x7, .f32⟩
  | 35 => ⟨S16384x7x7x1, .f32⟩
  | 36 => ⟨S16384x7x7, .f32⟩
  | 37 => ⟨S_, .f32⟩
  | 38 => ⟨S16384x7x7, .f32⟩
  | 39 => ⟨S16384x7x7, .f32⟩
  | 40 => ⟨S16384x7x7, .f32⟩
  | 41 => ⟨S16384x7x7, .f32⟩
  | 42 => ⟨S16384x7x7, .f32⟩
  | 43 => ⟨S16384x7x7, .f32⟩
  | 44 => ⟨S_, .f32⟩
  | 45 => ⟨S_, .f32⟩
  | 46 => ⟨S16384x7x7, .f32⟩
  | 47 => ⟨S16384x7x7, .f32⟩
  | 48 => ⟨S16384x7x7, .f32⟩
  | 49 => ⟨S16384x7x7, .f32⟩
  | 50 => ⟨S16384x7x7, .f32⟩
  | 51 => ⟨S_, .f32⟩
  | 52 => ⟨S_, .f32⟩
  | 53 => ⟨S16384x7x7, .f32⟩
  | 54 => ⟨S16384x7x7, .f32⟩
  | 55 => ⟨S16384x7x7, .f32⟩
  | 56 => ⟨S16384x7x7x1, .f32⟩
  | 57 => ⟨S16384x7x7, .f32⟩
  | 58 => ⟨S16384x7x7x1, .f32⟩
  | 59 => ⟨S16384x7x7, .f32⟩
  | 60 => ⟨S16384x7x7, .f32⟩
  | 61 => ⟨S16384x7x7x1, .f32⟩
  | 62 => ⟨S16384x7x7, .f32⟩
  | 63 => ⟨S16384x7x7x1, .f32⟩
  | 64 => ⟨S16384x7x7, .f32⟩
  | 65 => ⟨S16384x7x7, .f32⟩
  | 66 => ⟨S16384x7x7, .f32⟩
  | 67 => ⟨S16384x7x7, .f32⟩
  | 68 => ⟨S_, .f32⟩
  | 69 => ⟨S16384x7x7, .f32⟩
  | 70 => ⟨S16384x7x7, .f32⟩
  | 71 => ⟨S16384x7x7, .f32⟩
  | 72 => ⟨S16384x7x7, .i1⟩
  | 73 => ⟨S16384x7x7x2, .f32⟩
  | 74 => ⟨S16384x7x7x2, .f32⟩
  | 75 => ⟨S16384x7x7x2, .f32⟩
  | 76 => ⟨S16384x7x7x2, .f32⟩
  | 77 => ⟨S_, .f32⟩
  | 78 => ⟨S16384x7x7, .f32⟩
  | 79 => ⟨S16384x7x7x2, .f32⟩
  | 80 => ⟨S16384x7x7x2, .f32⟩
  | 81 => ⟨S16384x7x7x2, .f32⟩
  | 82 => ⟨S16384x7x7x2, .f32⟩
  | 83 => ⟨S_, .f32⟩
  | 84 => ⟨S16384x7x7, .f32⟩
  | 85 => ⟨S16384x7x7, .f32⟩
  | 86 => ⟨S_, .f32⟩
  | 87 => ⟨S16384x7x7, .f32⟩
  | 88 => ⟨S16384x7x7, .f32⟩
  | 89 => ⟨S16384x7x7x2, .f32⟩
  | 90 => ⟨S16384x7x7x2, .f32⟩
  | 91 => ⟨S16384x7x7x2, .f32⟩
  | 92 => ⟨S16384x7x7x2, .f32⟩
  | 93 => ⟨S16384x7x7x2, .f32⟩
  | 94 => ⟨S16384x7x7x2, .f32⟩
  | 95 => ⟨S_, .f32⟩
  | 96 => ⟨S16384x7x7, .f32⟩
  | 97 => ⟨S16384x7x7x2, .f32⟩
  | 98 => ⟨S16384x7x7x2, .f32⟩
  | 99 => ⟨S16384x7x7x2, .f32⟩
  | 100 => ⟨S16384x7x7x2, .f32⟩
  | 101 => ⟨S16384x7x7x2, .f32⟩
  | 102 => ⟨S16384x7x7x2, .f32⟩
  | 103 => ⟨S_, .f32⟩
  | 104 => ⟨S16384x7x7, .f32⟩
  | 105 => ⟨S16384x7x7, .f32⟩
  | 106 => ⟨S16384x7x7x1, .f32⟩
  | 107 => ⟨S16384x7x7, .f32⟩
  | 108 => ⟨S16384x7x7, .f32⟩
  | 109 => ⟨S16384x7x7, .f32⟩
  | 110 => ⟨S16384x7x7x1, .f32⟩
  | 111 => ⟨S16384x7x7, .f32⟩
  | 112 => ⟨S16384x7x7, .f32⟩
  | 113 => ⟨S16384x7x7, .f32⟩
  | 114 => ⟨S16384x7x7, .f32⟩
  | 115 => ⟨S16384x7x7x1, .f32⟩
  | 116 => ⟨S16384x7x7, .f32⟩
  | 117 => ⟨S16384x7x7, .f32⟩
  | 118 => ⟨S16384x7x7x1, .f32⟩
  | 119 => ⟨S16384x7x7, .f32⟩
  | 120 => ⟨S16384x7x7, .f32⟩
  | 121 => ⟨S16384x7x7, .f32⟩
  | 122 => ⟨S_, .f32⟩
  | 123 => ⟨S16384x7x7, .f32⟩
  | 124 => ⟨S16384x7x7, .f32⟩
  | 125 => ⟨S16384x7x7x20, .f32⟩
  | 126 => ⟨S16384x7x7x20, .f32⟩
  | 127 => ⟨S16384x7x7x20, .f32⟩
  | _ => ⟨S16384x7x7x30, .f32⟩

abbrev hbmTy0_2 (i : Nat) : BufTy := match i % 128 with
  | 0 => ⟨S16384x7x7x20, .f32⟩
  | 1 => ⟨S_, .f32⟩
  | 2 => ⟨S16384x7x7, .f32⟩
  | 3 => ⟨S16384x7x7x1, .f32⟩
  | 4 => ⟨S16384x7x7, .f32⟩
  | 5 => ⟨S16384x7x7, .f32⟩
  | 6 => ⟨S16384x7x7x1, .f32⟩
  | 7 => ⟨S16384x7x7, .f32⟩
  | 8 => ⟨S16384x7x7, .f32⟩
  | 9 => ⟨S16384x7x7, .f32⟩
  | 10 => ⟨S_, .f32⟩
  | 11 => ⟨S16384x7x7, .f32⟩
  | 12 => ⟨S16384x7x7, .f32⟩
  | 13 => ⟨S16384x7x7, .f32⟩
  | 14 => ⟨S16384x7x7, .f32⟩
  | 15 => ⟨S16384x7x7, .f32⟩
  | 16 => ⟨S16384x7x7, .f32⟩
  | 17 => ⟨S16384x7x7, .f32⟩
  | 18 => ⟨S_, .f32⟩
  | 19 => ⟨S_, .f32⟩
  | 20 => ⟨S_, .f32⟩
  | 21 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_14 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_15 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_16 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_17 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_18 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_19 : Ref sig .tc := ⟨.hbm, 172, rfl⟩
abbrev main_call2_v0 : Ref sig .tc := ⟨.hbm, 173, rfl⟩
abbrev main_call2_v1 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_20 : Ref sig .tc := ⟨.hbm, 179, rfl⟩
abbrev main_call3_v0 : Ref sig .tc := ⟨.hbm, 180, rfl⟩
abbrev main_call3_v1 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_cst_22 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_cst_23 : Ref sig .tc := ⟨.hbm, 211, rfl⟩
abbrev main_v177 : Ref sig .tc := ⟨.hbm, 212, rfl⟩
abbrev main_v178 : Ref sig .tc := ⟨.hbm, 213, rfl⟩
abbrev main_cst_24 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_cst_25 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_cst_26 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_cst_27 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_cst_28 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_cst_29 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_cst_30 : Ref sig .tc := ⟨.hbm, 274, rfl⟩
abbrev main_v233 : Ref sig .tc := ⟨.hbm, 275, rfl⟩
abbrev main_cst_31 : Ref sig .tc := ⟨.hbm, 276, rfl⟩
abbrev main_v234 : Ref sig .tc := ⟨.hbm, 277, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x4_S16384x7x7x1_0_0_0_0 : S16384x7x7x4.Slices ![0, 0, 0, 0] S16384x7x7x1
  slices_S16384x7x7x4_S16384x7x7x1_0_0_0_2 : S16384x7x7x4.Slices ![0, 0, 0, 2] S16384x7x7x1
  slices_S16384x7x7x4_S16384x7x7x1_0_0_0_1 : S16384x7x7x4.Slices ![0, 0, 0, 1] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  slices_S16384x7x7x30_S16384x7x7x2_0_0_0_0 : S16384x7x7x30.Slices ![0, 0, 0, 0] S16384x7x7x2
  reducesTo_S16384x7x7x2_S16384x7x7_d3 : S16384x7x7x2.ReducesTo [3] S16384x7x7
  h_S_ : 0 < S_.numel
  slices_S16384x7x7x30_S16384x7x7x2_0_0_0_5 : S16384x7x7x30.Slices ![0, 0, 0, 5] S16384x7x7x2
  slices_S16384x7x7x30_S16384x7x7x2_0_0_0_2 : S16384x7x7x30.Slices ![0, 0, 0, 2] S16384x7x7x2
  slices_S16384x7x7x30_S16384x7x7x2_0_0_0_7 : S16384x7x7x30.Slices ![0, 0, 0, 7] S16384x7x7x2
  slices_S16384x7x7x30_S16384x7x7x1_0_0_0_9 : S16384x7x7x30.Slices ![0, 0, 0, 9] S16384x7x7x1
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7
  reducesTo_S16384x7x7_S_d0_1_2 : S16384x7x7.ReducesTo [0, 1, 2] S_

variable [Facts₀]

class Facts : Prop extends Facts₀ where

variable [Facts]
-- ==== Proof.Cell.lean ====
/-
  The loss of one grid cell.

  A cell carries a row of 30 predictions `p` and a row of 30 labels `l`: two candidate boxes
  (centre x, centre y, width, height, confidence) at entries 0–4 and 5–9, then 20 class scores.
  Of the two predicted boxes the one with the larger intersection-over-union against the labelled box
  (entries 0–3 of `l`) is "responsible"; a cell that holds an object (`l 4 = 1`) is charged for the
  responsible box's coordinates (weight 5), its square-rooted extents, its confidence against the
  overlap, half the other box's squared confidence, and the squared class error; a cell without an object
  is charged half the two squared confidences. Everything is an exact operation on the extended reals,
  and the constants are kept as the words both programs print.
-/
import Idealize.ShloMosaic.PureOps.Ideal
import Idealize.ShloMosaic.Lib.ValueIdx

noncomputable section

namespace Cert.Yolo

open Idealize.ShloMosaic

/-- The constants, as the binary32 words they are written with. -/
abbrev one : EReal := Ideal.ofBits .f32 0x3F800000#32
abbrev two : EReal := Ideal.ofBits .f32 0x40000000#32
abbrev zero : EReal := Ideal.ofBits .f32 0x00000000#32
abbrev tiny : EReal := Ideal.ofBits .f32 0x2EDBE6FF#32
abbrev five : EReal := Ideal.ofBits .f32 0x40A00000#32
abbrev half : EReal := Ideal.ofBits .f32 0x3F000000#32

/-- Intersection over union of two boxes given by centre, width and height: the overlap of the two
    intervals on each axis, clipped at zero, multiplied; over the two areas' sum less the overlap, plus a
    small constant. -/
def iou (x y w h X Y W H : EReal) : EReal :=
  let iw := max zero (min (x + Ideal.div w two) (X + Ideal.div W two) - max (x - Ideal.div w two) (X - Ideal.div W two))
  let ih := max zero (min (y + Ideal.div h two) (Y + Ideal.div H two) - max (y - Ideal.div h two) (Y - Ideal.div H two))
  Ideal.div (iw * ih) (w * h + W * H - iw * ih + tiny)

/-- Entry `o + k` of a row of 30, for `k` below a width `n` with `o + n ≤ 30`. -/
abbrev at' (o n : Nat) (h : o + n ≤ 30) (k : Fin n) : Fin 30 := ⟨o + k.val, by have := k.isLt; omega⟩

/-- The loss of one cell from its row of predictions `p` and its row of labels `l`. -/
def cell (p l : Fin 30 → EReal) : EReal :=
  let iou1 := iou (p 0) (p 1) (p 2) (p 3) (l 0) (l 1) (l 2) (l 3)
  let iou2 := iou (p 5) (p 6) (p 7) (p 8) (l 0) (l 1) (l 2) (l 3)
  let first := Ideal.cmp .ogt iou1 iou2
  let centre := five * Scalar.select first
    (∑ k : Fin 2, (l (at' 0 2 (by omega) k) - p (at' 0 2 (by omega) k)) * (l (at' 0 2 (by omega) k) - p (at' 0 2 (by omega) k)))
    (∑ k : Fin 2, (l (at' 5 2 (by omega) k) - p (at' 5 2 (by omega) k)) * (l (at' 5 2 (by omega) k) - p (at' 5 2 (by omega) k)))
  let extent := Scalar.select first
    (∑ k : Fin 2, (Ideal.sqrt (l (at' 2 2 (by omega) k)) - Ideal.sqrt (p (at' 2 2 (by omega) k))) * (Ideal.sqrt (l (at' 2 2 (by omega) k)) - Ideal.sqrt (p (at' 2 2 (by omega) k))))
    (∑ k : Fin 2, (Ideal.sqrt (l (at' 7 2 (by omega) k)) - Ideal.sqrt (p (at' 7 2 (by omega) k))) * (Ideal.sqrt (l (at' 7 2 (by omega) k)) - Ideal.sqrt (p (at' 7 2 (by omega) k))))
  let conf := Scalar.select first ((iou1 - p 4) * (iou1 - p 4)) ((iou2 - p 9) * (iou2 - p 9))
  let other := half * Scalar.select first (p 9 * p 9) (p 4 * p 4)
  let classes := ∑ k : Fin 20, (l (at' 10 20 (by omega) k) - p (at' 10 20 (by omega) k)) * (l (at' 10 20 (by omega) k) - p (at' 10 20 (by omega) k))
  Scalar.select (Ideal.cmp .oeq (l 4) one) (centre + extent + conf + other + classes) (half * (p 4 * p 4 + p 9 * p 9))

/-! ## Over an array of cells -/

open Idealize.ShloMosaic.ValueIdx

/-- The row of 30 numbers of cell (n, a, b) of an array [N, 7, 7, 30]. -/
def rowAt {N : Nat} (x : (⟨4, ![N, 7, 7, 30]⟩ : Shape).Idx → EReal) (n : Fin N) (a b : Fin 7) : Fin 30 → EReal :=
  fun k => x (ix4 n a b k)

/-- The loss of cell (n, a, b) from the predictions `x0` and the labels `x1`. -/
def cellAt {N : Nat} (x0 x1 : (⟨4, ![N, 7, 7, 30]⟩ : Shape).Idx → EReal) (n : Fin N) (a b : Fin 7) : EReal :=
  cell (rowAt x0 n a b) (rowAt x1 n a b)

/-- The loss summed over all the cells of all N images. -/
def lossSum {N : Nat} (x0 x1 : (⟨4, ![N, 7, 7, 30]⟩ : Shape).Idx → EReal) : EReal :=
  ∑ n : Fin N, ∑ a : Fin 7, ∑ b : Fin 7, cellAt x0 x1 n a b

end Cert.Yolo

end
-- ==== Proof.Layout.lean ====
/-
  Reading the layout operations of both programs at a cell.

  Both programs hold their data as arrays [N, 7, 7, w] (N images, a 7 × 7 grid of cells, w numbers per
  cell) and take from them: a range of the last axis (a slice at offset `o`), one entry of it (a slice
  of width one with the unit axis dropped), and a sum along it. At cell (n, a, b) each of these reads the
  operand at (n, a, b, ·): entry `o + j`, entry `o`, and the sum over all `j`.
  The statements are generic in the number of images N, so that the same lemma serves a block of 256
  images and the whole array of 16384.
-/
import Idealize.ShloMosaic.Lib.Pipeline.Value
import Idealize.ShloMosaic.Lib.ValueIdx
import Idealize.ShloMosaic.PureOps.Ideal.Laws

noncomputable section

namespace Cert.Yolo

open Idealize.ShloMosaic Idealize.ShloMosaic.ValueIdx

variable {α : Type} {N w k o : Nat}

/-- A slice of the last axis at offset `o` and width `k` fits: `o + k ≤ w`. -/
theorem slice_le (h : (⟨4, ![N, 7, 7, w]⟩ : Shape).Slices ![0, 0, 0, o] ⟨4, ![N, 7, 7, k]⟩) : o + k ≤ w := h.2 3

/-- A range `[o, o + k)` of the last axis, read at (n, a, b, j): the operand at (n, a, b, o + j). -/
theorem slice_apply (X : (⟨4, ![N, 7, 7, w]⟩ : Shape).Idx → α)
    (h : (⟨4, ![N, 7, 7, w]⟩ : Shape).Slices ![0, 0, 0, o] ⟨4, ![N, 7, 7, k]⟩) (n : Fin N) (a b : Fin 7) (j : Fin k) :
    extractStridedSlice ⟨4, ![N, 7, 7, k]⟩ ![0, 0, 0, o] X h (ix4 n a b j)
      = X (ix4 n a b ⟨o + j.val, by have := slice_le h; have := j.isLt; omega⟩) :=
  extractStridedSlice_apply _ X h _ _ (fun d => match d with
    | ⟨0, _⟩ => by show n.val = 0 + n.val; omega
    | ⟨1, _⟩ => by show a.val = 0 + a.val; omega
    | ⟨2, _⟩ => by show b.val = 0 + b.val; omega
    | ⟨3, _⟩ => rfl)

/-- Entry `o` of the last axis as an array over the cells, read at (n, a, b): the operand at (n, a, b, o). -/
theorem column_apply (X : (⟨4, ![N, 7, 7, w]⟩ : Shape).Idx → α)
    (h1 : (⟨4, ![N, 7, 7, w]⟩ : Shape).Slices ![0, 0, 0, o] ⟨4, ![N, 7, 7, 1]⟩)
    (h2 : (⟨4, ![N, 7, 7, 1]⟩ : Shape).ShapeCasts ⟨3, ![N, 7, 7]⟩) (n : Fin N) (a b : Fin 7) :
    shapeCast ⟨3, ![N, 7, 7]⟩ (extractStridedSlice ⟨4, ![N, 7, 7, 1]⟩ ![0, 0, 0, o] X h1) h2 (ix3 n a b)
      = X (ix4 n a b ⟨o, by have := slice_le h1; omega⟩) := by
  refine (shapeCast_apply _ h2 (ix3 n a b) (ix4 n a b (0 : Fin 1)) ?_).trans (slice_apply X h1 n a b 0)
  rw [Shape.rowMajor_val_four, Shape.rowMajor_val_three]
  show ((n.val * 7 + a.val) * 7 + b.val) * 1 + 0 = (n.val * 7 + a.val) * 7 + b.val
  omega

/-- A kernel's sum along the last axis, read at (n, a, b): the sum over `j` of the operand at (n, a, b, j). -/
theorem lastSum_apply (src : FVec Ideal ⟨4, ![N, 7, 7, w]⟩ .f32)
    (h : (⟨4, ![N, 7, 7, w]⟩ : Shape).Reduces [(3 : Fin 4)] ⟨3, ![N, 7, 7]⟩) (hφ : FKind.Formats .f32)
    (hacc : (0x00000000#32 : BitVec 32) = 0x00000000#32) (n : Fin N) (a b : Fin 7) :
    multiReduction .add [(3 : Fin 4)] ⟨3, ![N, 7, 7]⟩ src 0x00000000#32 h hφ hacc (ix3 n a b) = ∑ j : Fin w, src (ix4 n a b j) := by
  refine (Ideal.multiReduction_add_single src 0x00000000#32 h hφ hacc (ix3 n a b)).trans ?_
  exact Finset.sum_congr rfl fun j _ => congrArg src (funext fun d => Fin.ext (by
    match d with | ⟨0, _⟩ => rfl | ⟨1, _⟩ => rfl | ⟨2, _⟩ => rfl | ⟨3, _⟩ => rfl))

/-- The host's sum along the last axis, read at (n, a, b): the initial value plus the same sum. -/
theorem hostLastSum_apply (src : FVec Ideal ⟨4, ![N, 7, 7, w]⟩ .f32) (init : (⟨0, ![]⟩ : Shape).Idx → Ideal .f32)
    (h' : (⟨4, ![N, 7, 7, w]⟩ : Shape).ReducesTo [(3 : Fin 4)] ⟨3, ![N, 7, 7]⟩)
    (h : (⟨4, ![N, 7, 7, w]⟩ : Shape).Reduces [(3 : Fin 4)] ⟨3, ![N, 7, 7]⟩)
    (hu : 0 < (⟨0, ![]⟩ : Shape).numel) (n : Fin N) (a b : Fin 7) :
    Host.reduceAdd src init h' hu (ix3 n a b) = init (Shape.Idx.first hu) + ∑ j : Fin w, src (ix4 n a b j) := by
  simp only [Host.reduceAdd, Ideal.hostReduceAdd_def]
  rw [Ideal.hostReduceAdd_single h' h]
  refine congrArg (_ + ·) (Finset.sum_congr rfl fun j _ => congrArg src (funext fun d => Fin.ext (by
    match d with | ⟨0, _⟩ => rfl | ⟨1, _⟩ => rfl | ⟨2, _⟩ => rfl | ⟨3, _⟩ => rfl)))

/-! The remaining operations are pointwise by definition. -/

theorem sqrt_apply {s : Shape} (x : FVec Ideal s .f32) (i : s.Idx) : sqrt x i = Ideal.sqrt (x i) := rfl
theorem hostSqrt_apply {s : Shape} (x : FVec Ideal s .f32) (i : s.Idx) : Host.sqrt x i = Ideal.sqrt (x i) := rfl
theorem hostDivf_apply {s : Shape} (x y : FVec Ideal s .f32) (i : s.Idx) : Host.divf x y i = Ideal.div (x i) (y i) := rfl
theorem cmpf_apply' {s : Shape} (p : CmpFPredicate) (x y : FVec Ideal s .f32) (i : s.Idx) : cmpf p x y i = Ideal.cmp p (x i) (y i) := rfl

end Cert.Yolo

end
-- ==== Proof.RefValue.lean ====
/-
  What the reference computes.

  The reference forms every cell's loss over the whole arrays of 16384 images, sums all of them, and divides by
  16384. Stage by stage (the stages are the reference program's operations, read at a cell), the array of cell
  losses is `cellAt` at every cell, and the result is the total loss over 16384.

  The stages are of three kinds. The layout stages take one entry, or a range of entries, of a cell's row of 30
  numbers (directly, or through a range of four entries first); read at cell (n, a, b) they are entries of the
  row. The sums run along a range of a row, starting from the zero word, which is the number 0. Every other stage
  is one exact scalar operation applied cell by cell, or a constant spread over all the cells. Read at one cell,
  the stages therefore spell out, operation for operation, the two overlaps `iou` of the predicted boxes with the
  labelled box, and from them the five charges of a cell that holds an object and the charge of one that does not:
  the definition of `cell` on the cell's two rows. The total is then a sum over all cell indices, which is the
  triple sum over images, rows and columns.
-/
import proofs.«130938_j8641474199685_2_alg».proof.Proof.RefRead
import proofs.«130938_j8641474199685_2_alg».proof.Proof.Cell
import proofs.«130938_j8641474199685_2_alg».proof.Proof.Layout

noncomputable section

namespace Cert.ReferenceIdeal.RefValue

open Cert.ReferenceIdeal Cert.ReferenceIdeal.ReadP Idealize.ShloMosaic Idealize.ShloMosaic.ValueIdx Cert.Yolo

variable (x0 x1 : (⟨S16384x7x7x30, .f32⟩ : BufTy).Contents (Elt Ideal)) (n : Fin 16384) (a b : Fin 7)

/-! ## The layout operations of the reference, read at a cell -/

/-- A scalar spread over the cells reads, at every cell, as the scalar. -/
theorem scalar_apply {α : Type} (y : S_.Idx → α) (h : S_.BroadcastsInDim S16384x7x7 ![]) (i : S16384x7x7.Idx) :
    broadcastInDim S16384x7x7 ![] h y i = y ix0 :=
  broadcastInDim_apply _ h y i ix0 (fun a => a.elim0)

/-- Entry `o'` of a range `[o, o + 4)` of the last axis, as an array over the cells, read at (n, a, b):
    the operand at (n, a, b, o + o'). -/
theorem column2_apply {α : Type} {o o' : Nat} (X : S16384x7x7x30.Idx → α)
    (h : S16384x7x7x30.Slices ![0, 0, 0, o] S16384x7x7x4)
    (h1 : S16384x7x7x4.Slices ![0, 0, 0, o'] S16384x7x7x1)
    (h2 : S16384x7x7x1.ShapeCasts S16384x7x7) (n : Fin 16384) (a b : Fin 7) :
    shapeCast S16384x7x7 (extractStridedSlice S16384x7x7x1 ![0, 0, 0, o'] (extractStridedSlice S16384x7x7x4 ![0, 0, 0, o] X h) h1) h2 (ix3 n a b)
      = X (ix4 n a b ⟨o + o', by have := slice_le h; have := slice_le h1; omega⟩) :=
  (column_apply _ h1 h2 n a b).trans (slice_apply X h n a b _)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum along a last axis of width 2 from the zero word, read at (n, a, b): the sum of the two entries. -/
theorem sum2_apply (src : FVec Ideal S16384x7x7x2 .f32) (h' : S16384x7x7x2.ReducesTo [(3 : Fin 4)] S16384x7x7)
    (hu : 0 < S_.numel) (n : Fin 16384) (a b : Fin 7) :
    Host.reduceAdd src (constant S_ .f32 0x00000000#32) h' hu (ix3 n a b) = ∑ j : Fin 2, src (ix4 n a b j) := by
  rw [hostLastSum_apply src _ h' (by decide) hu n a b]
  show Ideal.ofBits .f32 0x00000000#32 + _ = _
  rw [Ideal.ofBits_zero_f32, zero_add]

/-- The same along a last axis of width 20. -/
theorem sum20_apply (src : FVec Ideal S16384x7x7x20 .f32) (h' : S16384x7x7x20.ReducesTo [(3 : Fin 4)] S16384x7x7)
    (hu : 0 < S_.numel) (n : Fin 16384) (a b : Fin 7) :
    Host.reduceAdd src (constant S_ .f32 0x00000000#32) h' hu (ix3 n a b) = ∑ j : Fin 20, src (ix4 n a b j) := by
  rw [hostLastSum_apply src _ h' (by decide) hu n a b]
  show Ideal.ofBits .f32 0x00000000#32 + _ = _
  rw [Ideal.ofBits_zero_f32, zero_add]

/-! ## The two overlaps -/

/-- The overlap of the first predicted box with the labelled box, at cell (n, a, b). -/
theorem iou1_apply : val_main_v85 (F := Ideal) x0 x1 (ix3 n a b)
    = iou (rowAt x0 n a b 0) (rowAt x0 n a b 1) (rowAt x0 n a b 2) (rowAt x0 n a b 3)
        (rowAt x1 n a b 0) (rowAt x1 n a b 1) (rowAt x1 n a b 2) (rowAt x1 n a b 3) := by
  simp only [
    val_main_v85, val_main_v70, val_main_v65, val_main_call0_v1, val_main_call0_v0, val_main_cst_8, val_main_v64,
    val_main_v62, val_main_v26, val_main_v21, val_main_v20, val_main_v5, val_main_v25, val_main_v23, val_main_v22,
    val_main_v24, val_main_cst_2, val_main_v54, val_main_v49, val_main_v48, val_main_v4, val_main_v53, val_main_v51,
    val_main_v50, val_main_v52, val_main_cst_6, val_main_v63, val_main_v12, val_main_v7, val_main_v6, val_main_v11,
    val_main_v9, val_main_v8, val_main_v10, val_main_cst_0, val_main_v40, val_main_v35, val_main_v34, val_main_v39,
    val_main_v37, val_main_v36, val_main_v38, val_main_cst_4, val_main_v69, val_main_call1_v1, val_main_call1_v0,
    val_main_cst_9, val_main_v68, val_main_v66, val_main_v33, val_main_v28, val_main_v27, val_main_v32, val_main_v30,
    val_main_v29, val_main_v31, val_main_cst_3, val_main_v61, val_main_v56, val_main_v55, val_main_v60, val_main_v58,
    val_main_v57, val_main_v59, val_main_cst_7, val_main_v67, val_main_v19, val_main_v14, val_main_v13, val_main_v18,
    val_main_v16, val_main_v15, val_main_v17, val_main_cst_1, val_main_v47, val_main_v42, val_main_v41, val_main_v46,
    val_main_v44, val_main_v43, val_main_v45, val_main_cst_5, val_main_v84, val_main_v82, val_main_v81, val_main_v75,
    val_main_v72, val_main_v71, val_main_v74, val_main_v73, val_main_v80, val_main_v77, val_main_v76, val_main_v79,
    val_main_v78, val_main_v83, val_main_cst_10,
    hostDivf_apply, addf_apply, subf_apply, mulf_apply, maximumf_apply, minimumf_apply, column2_apply, scalar_apply, id_eq, constant_apply]
  rfl

/-- The overlap of the second predicted box with the labelled box, at cell (n, a, b). -/
theorem iou2_apply : val_main_v166 (F := Ideal) x0 x1 (ix3 n a b)
    = iou (rowAt x0 n a b 5) (rowAt x0 n a b 6) (rowAt x0 n a b 7) (rowAt x0 n a b 8)
        (rowAt x1 n a b 0) (rowAt x1 n a b 1) (rowAt x1 n a b 2) (rowAt x1 n a b 3) := by
  simp only [
    val_main_v166, val_main_v151, val_main_v146, val_main_call2_v1, val_main_call2_v0, val_main_cst_19,
    val_main_v145, val_main_v143, val_main_v107, val_main_v102, val_main_v101, val_main_v86, val_main_v106,
    val_main_v104, val_main_v103, val_main_v105, val_main_cst_13, val_main_v135, val_main_v130, val_main_v129,
    val_main_v4, val_main_v134, val_main_v132, val_main_v131, val_main_v133, val_main_cst_17, val_main_v144,
    val_main_v93, val_main_v88, val_main_v87, val_main_v92, val_main_v90, val_main_v89, val_main_v91,
    val_main_cst_11, val_main_v121, val_main_v116, val_main_v115, val_main_v120, val_main_v118, val_main_v117,
    val_main_v119, val_main_cst_15, val_main_v150, val_main_call3_v1, val_main_call3_v0, val_main_cst_20,
    val_main_v149, val_main_v147, val_main_v114, val_main_v109, val_main_v108, val_main_v113, val_main_v111,
    val_main_v110, val_main_v112, val_main_cst_14, val_main_v142, val_main_v137, val_main_v136, val_main_v141,
    val_main_v139, val_main_v138, val_main_v140, val_main_cst_18, val_main_v148, val_main_v100, val_main_v95,
    val_main_v94, val_main_v99, val_main_v97, val_main_v96, val_main_v98, val_main_cst_12, val_main_v128,
    val_main_v123, val_main_v122, val_main_v127, val_main_v125, val_main_v124, val_main_v126, val_main_cst_16,
    val_main_v165, val_main_v163, val_main_v162, val_main_v156, val_main_v153, val_main_v152, val_main_v155,
    val_main_v154, val_main_v161, val_main_v158, val_main_v157, val_main_v160, val_main_v159, val_main_v164,
    val_main_cst_21,
    hostDivf_apply, addf_apply, subf_apply, mulf_apply, maximumf_apply, minimumf_apply, column2_apply, scalar_apply, id_eq, constant_apply]
  rfl

/-! ## The cell's loss and the total -/

/-- The reference's array of cell losses (its last stage before the total), at cell (n, a, b). -/
theorem ref_cell (x0 x1 : (⟨S16384x7x7x30, .f32⟩ : BufTy).Contents (Elt Ideal)) (n : Fin 16384) (a b : Fin 7) :
    val_main_v232 (F := Ideal) x0 x1 (ix3 n a b) = cellAt (N := 16384) x0 x1 n a b := by
  simp only [
    val_main_v232, val_main_v3, val_main_v1, val_main_v0, val_main_v2, val_main_cst, val_main_v231, val_main_v230,
    val_main_v229, val_main_v228, val_main_v180, val_main_v179, val_main_cst_24, val_main_v178, val_main_v167,
    val_main_v172, val_main_v171, val_main_v170, val_main_v168, val_main_v169, val_main_cst_22, val_main_v177,
    val_main_v176, val_main_v175, val_main_v173, val_main_v174, val_main_cst_23, val_main_v195, val_main_v187,
    val_main_v186, val_main_v185, val_main_v182, val_main_v181, val_main_v184, val_main_v183, val_main_cst_25,
    val_main_v194, val_main_v193, val_main_v192, val_main_v189, val_main_v188, val_main_v191, val_main_v190,
    val_main_cst_26, val_main_v204, val_main_v199, val_main_v198, val_main_v197, val_main_v196, val_main_v203,
    val_main_v202, val_main_v201, val_main_v200, val_main_v213, val_main_v212, val_main_cst_27, val_main_v211,
    val_main_v207, val_main_v206, val_main_v205, val_main_v210, val_main_v209, val_main_v208, val_main_v218,
    val_main_v217, val_main_v216, val_main_v214, val_main_v215, val_main_cst_28, val_main_v227, val_main_v226,
    val_main_cst_29, val_main_v225, val_main_v221, val_main_v220, val_main_v219, val_main_v224, val_main_v223,
    val_main_v222,
    select_apply, cmpf_apply', addf_apply, subf_apply, mulf_apply, hostSqrt_apply, sum2_apply, sum20_apply,
    slice_apply, column_apply, scalar_apply, constant_apply, iou1_apply, iou2_apply]
  rfl

/-- The reference's result: the total loss divided by the word of 16384. -/
theorem ref_value (x0 x1 : (⟨S16384x7x7x30, .f32⟩ : BufTy).Contents (Elt Ideal)) :
    val_main_v234 (F := Ideal) x0 x1 = fun _ => Ideal.div (lossSum (N := 16384) x0 x1) (Ideal.ofBits .f32 0x46800000#32) := by
  funext i
  rw [val_main_v234_apply, val_main_v233_apply]
  show Ideal.div (Ideal.ofBits .f32 0x00000000#32 + ∑ j : S16384x7x7.Idx, val_main_v232 (F := Ideal) x0 x1 j)
      (Ideal.ofBits .f32 0x46800000#32) = _
  rw [Ideal.ofBits_zero_f32, zero_add, sum_idx3]
  simp only [ref_cell]
  rfl

end Cert.ReferenceIdeal.RefValue

end
-- ==== Proof.KernelBlock.lean ====
/-
  What the kernel's body stores at one grid point.

  At a grid point the body holds a block of 256 images of the predictions (`v3`) and of the labels (`v4`) and
  the running total `acc` (a [1, 1] array). It computes every cell's loss, sums the cells of each image's
  grid row, then the rows of each image, then the 256 images, and stores the running total plus that sum.
  `blockStore` is that stored value, composed from the body's payload terms in the order the body
  computes them; read at its one entry it is the running total plus the loss summed over the block.

  The proof reads the value from the outside in. The last payload's three sums (over a row's cells, an image's
  rows, the block's images) and the casts between them are read at an index as finite sums, which leaves, at each
  cell (r, a, b), a select on the object flag between the five-term loss and the no-object charge, written over the
  arrays the earlier payloads produce. Each of those arrays is then read at the cell: the two overlaps are the
  intersection over union of a predicted box with the labelled one, the comparison says which is larger, and the
  masked sums are sums over two or twenty entries of the cell's rows. Put together, the cell's term is the loss of
  the cell as `Cert.Yolo.cell` defines it, term for term.
-/
import proofs.«130938_j8641474199685_2_alg».proof.Proof.Gen.KernelIdeal.Skeleton
import proofs.«130938_j8641474199685_2_alg».proof.Proof.Cell
import proofs.«130938_j8641474199685_2_alg».proof.Proof.Layout

noncomputable section

namespace Cert.KernelIdeal.Block

open Cert.KernelIdeal Cert.KernelIdeal.Gen Idealize.ShloMosaic Idealize.ShloMosaic.ValueIdx Cert.Yolo

/-- The value the body stores into the running total's block: the payload terms of the body composed
    in program order, from the two loaded blocks and the loaded running total. -/
def blockStore {F : FTy → Type} [FloatOps F] (v3 v4 : Vec F S256x7x7x30 .f32) (acc : Vec F S1x1 .f32) : FVec F S1x1 .f32 :=
  let v9 := k0_pay4 v4
  let v10 := k0_pay5 v3
  let v92 := k0_pay12 v9 v10 (k0_pay6 v3) (k0_pay7 v3) (k0_pay8 v3) (k0_pay9 v3) (k0_pay10 v4) (k0_pay11 v4)
  let v93 := k0_pay13 v3
  let v95 := k0_pay14 v3
  let v100 := k0_pay15 v93 v95
  let v107 := k0_pay16 v93
  let v114 := k0_pay17 v93
  let v121 := k0_pay18 v93
  let v128 := k0_pay19 v9
  let v135 := k0_pay20 v9
  let v142 := k0_pay21 v9
  let v144 := k0_pay22 v9
  let v146 := k0_pay23 v9
  let v147 := k0_pay24 (F := F)
  let v175 := k0_pay25 v9 v93 v100 v107 v114 v121 v128 v135 v142 v144 v146 v147
  let v176 := k0_pay26 v9 v92 v93 v100 v107 v114 v121 v128 v135 v142 v144 v146 v147
  let v189 := k0_pay27 v3 v4 v9 v92 v93 v100 v107 v114 v121 v128 v135 v142 v144 v146 v147
  k0_pay31 v3 v4 (k0_pay3 v4) v92 v175 v176 v189 (k0_pay28 v3 v4) (k0_pay29 v4) (k0_pay30 v3) acc

/-! ## The three outer sums and the casts between them, read at an index -/

/-- A sum along the last axis of an array [N, 7, 7], read at (n, a): the sum over b of the operand at (n, a, b). -/
theorem sumCols_apply {N : Nat} (src : FVec Ideal ⟨3, ![N, 7, 7]⟩ .f32)
    (h : (⟨3, ![N, 7, 7]⟩ : Shape).Reduces [(2 : Fin 3)] ⟨2, ![N, 7]⟩) (hφ : FKind.Formats .f32)
    (hacc : (0x00000000#32 : BitVec 32) = 0x00000000#32) (n : Fin N) (a : Fin 7) :
    multiReduction .add [(2 : Fin 3)] ⟨2, ![N, 7]⟩ src 0x00000000#32 h hφ hacc (ix2 n a) = ∑ b : Fin 7, src (ix3 n a b) := by
  refine (Ideal.multiReduction_add_single src 0x00000000#32 h hφ hacc (ix2 n a)).trans ?_
  exact Finset.sum_congr rfl fun j _ => congrArg src (funext fun d => Fin.ext (by
    match d with | ⟨0, _⟩ => rfl | ⟨1, _⟩ => rfl | ⟨2, _⟩ => rfl))

/-- A sum along the last axis of an array [N, 7], read at n: the sum over a of the operand at (n, a). -/
theorem sumRows_apply {N : Nat} (src : FVec Ideal ⟨2, ![N, 7]⟩ .f32)
    (h : (⟨2, ![N, 7]⟩ : Shape).Reduces [(1 : Fin 2)] ⟨1, ![N]⟩) (hφ : FKind.Formats .f32)
    (hacc : (0x00000000#32 : BitVec 32) = 0x00000000#32) (n : Fin N) :
    multiReduction .add [(1 : Fin 2)] ⟨1, ![N]⟩ src 0x00000000#32 h hφ hacc (ix1 n) = ∑ a : Fin 7, src (ix2 n a) := by
  refine (Ideal.multiReduction_add_single src 0x00000000#32 h hφ hacc (ix1 n)).trans ?_
  exact Finset.sum_congr rfl fun j _ => congrArg src (funext fun d => Fin.ext (by
    match d with | ⟨0, _⟩ => rfl | ⟨1, _⟩ => rfl))

/-- A sum along the first axis of an array [N, 1], read at its one index: the sum over n of the operand at (n, 0). -/
theorem sumImages_apply {N : Nat} (src : FVec Ideal ⟨2, ![N, 1]⟩ .f32)
    (h : (⟨2, ![N, 1]⟩ : Shape).Reduces [(0 : Fin 2)] ⟨1, ![1]⟩) (hφ : FKind.Formats .f32)
    (hacc : (0x00000000#32 : BitVec 32) = 0x00000000#32) :
    multiReduction .add [(0 : Fin 2)] ⟨1, ![1]⟩ src 0x00000000#32 h hφ hacc (ix1 (0 : Fin 1)) = ∑ n : Fin N, src (ix2 n (0 : Fin 1)) := by
  refine (Ideal.multiReduction_add_single src 0x00000000#32 h hφ hacc (ix1 (0 : Fin 1))).trans ?_
  exact Finset.sum_congr rfl fun j _ => congrArg src (funext fun d => Fin.ext (by
    match d with | ⟨0, _⟩ => rfl | ⟨1, _⟩ => rfl))

/-- An array [N] seen as [N, 1], read at (n, 0): the operand at n. -/
theorem colCast_apply {α : Type} {N : Nat} (X : (⟨1, ![N]⟩ : Shape).Idx → α)
    (h : (⟨1, ![N]⟩ : Shape).ShapeCasts ⟨2, ![N, 1]⟩) (n : Fin N) :
    shapeCast ⟨2, ![N, 1]⟩ X h (ix2 n (0 : Fin 1)) = X (ix1 n) := by
  refine shapeCast_apply _ h (ix2 n (0 : Fin 1)) (ix1 n) ?_
  rw [Shape.rowMajor_val_two, Shape.rowMajor_val_one]
  show n.val = n.val * 1 + 0
  omega

/-- An array [1] seen as [1, 1], read at (0, 0): the operand at 0. -/
theorem unitCast_apply {α : Type} (X : (⟨1, ![1]⟩ : Shape).Idx → α)
    (h : (⟨1, ![1]⟩ : Shape).ShapeCasts ⟨2, ![1, 1]⟩) :
    shapeCast ⟨2, ![1, 1]⟩ X h (ix2 (0 : Fin 1) (0 : Fin 1)) = X (ix1 (0 : Fin 1)) :=
  colCast_apply X h 0

/-- The last payload at its one entry: the running total plus, summed over the block's images, grid rows and
    cells, the cell's loss assembled from the arrays it is given. -/
theorem pay31_apply (v3 v4 : Vec Ideal S256x7x7x30 .f32) (v8 : IVec S256x7x7 1) (v92 v175 : FVec Ideal S256x7x7 .f32)
    (v176 : IVec S256x7x7 1) (v189 v196 : FVec Ideal S256x7x7 .f32) (v198 v200 : FVec Ideal S256x7x7x2 .f32)
    (acc : Vec Ideal S1x1 .f32) :
    k0_pay31 v3 v4 v8 v92 v175 v176 v189 v196 v198 v200 acc (ix2 0 0)
      = acc (ix2 0 0) + ∑ r : Fin 256, ∑ a : Fin 7, ∑ b : Fin 7,
          Scalar.select (v8 (ix3 r a b))
            (v189 (ix3 r a b)
              + Scalar.select (v176 (ix3 r a b)) (v196 (ix3 r a b))
                  (∑ k : Fin 2, (v198 (ix4 r a b k) - v200 (ix4 r a b k)) * (v198 (ix4 r a b k) - v200 (ix4 r a b k)))
              + Scalar.select (v176 (ix3 r a b))
                  ((v92 (ix3 r a b) - v3 (ix4 r a b 4)) * (v92 (ix3 r a b) - v3 (ix4 r a b 4)))
                  ((v175 (ix3 r a b) - v3 (ix4 r a b 9)) * (v175 (ix3 r a b) - v3 (ix4 r a b 9)))
              + half * Scalar.select (v176 (ix3 r a b)) (v3 (ix4 r a b 9) * v3 (ix4 r a b 9)) (v3 (ix4 r a b 4) * v3 (ix4 r a b 4))
              + ∑ k : Fin 20, (v4 (ix4 r a b (at' 10 20 (by omega) k)) - v3 (ix4 r a b (at' 10 20 (by omega) k)))
                  * (v4 (ix4 r a b (at' 10 20 (by omega) k)) - v3 (ix4 r a b (at' 10 20 (by omega) k))))
            (half * (v3 (ix4 r a b 4) * v3 (ix4 r a b 4) + v3 (ix4 r a b 9) * v3 (ix4 r a b 9))) := by
  simp only [k0_pay31, addf_apply, shapeCast_self, unitCast_apply, sumImages_apply (N := 256), colCast_apply (N := 256),
    sumRows_apply (N := 256), sumCols_apply (N := 256), select_apply, mulf_apply, subf_apply, broadcast_apply,
    lastSum_apply (N := 256), column_apply (N := 256), slice_apply (N := 256)]
  rfl

/-! ## The body's intermediate arrays, as the block's two arrays determine them -/

section
variable (x0 x1 : Vec Ideal S256x7x7x30 .f32)

/-- The overlap of the first predicted box (entries 0–3) with the labelled box, at every cell of the block. -/
def iou1V : FVec Ideal S256x7x7 .f32 :=
  k0_pay12 (k0_pay4 x1) (k0_pay5 x0) (k0_pay6 x0) (k0_pay7 x0) (k0_pay8 x0) (k0_pay9 x0) (k0_pay10 x1) (k0_pay11 x1)

/-- The overlap of the second predicted box (entries 5–8) with the labelled box, at every cell of the block. -/
def iou2V : FVec Ideal S256x7x7 .f32 :=
  k0_pay25 (k0_pay4 x1) (k0_pay13 x0) (k0_pay15 (k0_pay13 x0) (k0_pay14 x0)) (k0_pay16 (k0_pay13 x0))
    (k0_pay17 (k0_pay13 x0)) (k0_pay18 (k0_pay13 x0)) (k0_pay19 (k0_pay4 x1)) (k0_pay20 (k0_pay4 x1))
    (k0_pay21 (k0_pay4 x1)) (k0_pay22 (k0_pay4 x1)) (k0_pay23 (k0_pay4 x1)) k0_pay24

/-- Whether the first box is the responsible one, at every cell of the block. -/
def firstV : IVec S256x7x7 1 :=
  k0_pay26 (k0_pay4 x1) (iou1V x0 x1) (k0_pay13 x0) (k0_pay15 (k0_pay13 x0) (k0_pay14 x0)) (k0_pay16 (k0_pay13 x0))
    (k0_pay17 (k0_pay13 x0)) (k0_pay18 (k0_pay13 x0)) (k0_pay19 (k0_pay4 x1)) (k0_pay20 (k0_pay4 x1))
    (k0_pay21 (k0_pay4 x1)) (k0_pay22 (k0_pay4 x1)) (k0_pay23 (k0_pay4 x1)) k0_pay24

/-- The weighted squared error of the responsible box's centre, at every cell of the block. -/
def centreV : FVec Ideal S256x7x7 .f32 :=
  k0_pay27 x0 x1 (k0_pay4 x1) (iou1V x0 x1) (k0_pay13 x0) (k0_pay15 (k0_pay13 x0) (k0_pay14 x0)) (k0_pay16 (k0_pay13 x0))
    (k0_pay17 (k0_pay13 x0)) (k0_pay18 (k0_pay13 x0)) (k0_pay19 (k0_pay4 x1)) (k0_pay20 (k0_pay4 x1))
    (k0_pay21 (k0_pay4 x1)) (k0_pay22 (k0_pay4 x1)) (k0_pay23 (k0_pay4 x1)) k0_pay24

/-- The stored value is the last payload over these arrays. -/
theorem blockStore_eq (acc : Vec Ideal S1x1 .f32) :
    blockStore (F := Ideal) x0 x1 acc
      = k0_pay31 x0 x1 (k0_pay3 x1) (iou1V x0 x1) (iou2V x0 x1) (firstV x0 x1) (centreV x0 x1)
          (k0_pay28 x0 x1) (k0_pay29 x1) (k0_pay30 x0) acc := rfl

variable (r : Fin 256) (a b : Fin 7)

/-- The object flag of a cell: entry 4 of its labels against one. -/
theorem pay3_apply : k0_pay3 (F := Ideal) x1 (ix3 r a b) = Ideal.cmp .oeq (x1 (ix4 r a b 4)) one := by
  simp only [k0_pay3, cmpf_apply', column_apply (N := 256), broadcast_apply]
  rfl

/-- The first overlap at a cell. -/
theorem iou1V_apply : iou1V x0 x1 (ix3 r a b)
    = iou (x0 (ix4 r a b 0)) (x0 (ix4 r a b 1)) (x0 (ix4 r a b 2)) (x0 (ix4 r a b 3))
        (x1 (ix4 r a b 0)) (x1 (ix4 r a b 1)) (x1 (ix4 r a b 2)) (x1 (ix4 r a b 3)) := by
  simp only [iou1V, k0_pay12, k0_pay4, k0_pay5, k0_pay6, k0_pay7, k0_pay8, k0_pay9, k0_pay10, k0_pay11,
    divf_apply, subf_apply, addf_apply, mulf_apply, minimumf_apply, maximumf_apply, broadcast_apply,
    column_apply (N := 256), slice_apply (N := 256)]
  rfl

/-- The second overlap at a cell. -/
theorem iou2V_apply : iou2V x0 x1 (ix3 r a b)
    = iou (x0 (ix4 r a b 5)) (x0 (ix4 r a b 6)) (x0 (ix4 r a b 7)) (x0 (ix4 r a b 8))
        (x1 (ix4 r a b 0)) (x1 (ix4 r a b 1)) (x1 (ix4 r a b 2)) (x1 (ix4 r a b 3)) := by
  simp only [iou2V, k0_pay25, k0_pay4, k0_pay13, k0_pay14, k0_pay15, k0_pay16, k0_pay17, k0_pay18, k0_pay19, k0_pay20,
    k0_pay21, k0_pay22, k0_pay23, k0_pay24,
    divf_apply, subf_apply, addf_apply, mulf_apply, minimumf_apply, maximumf_apply, broadcast_apply,
    column_apply (N := 256), slice_apply (N := 256)]
  rfl

/-- The first box is responsible at a cell when its overlap is the larger. -/
theorem firstV_apply : firstV x0 x1 (ix3 r a b) = Ideal.cmp .ogt (iou1V x0 x1 (ix3 r a b)) (iou2V x0 x1 (ix3 r a b)) := rfl

/-- The centre term at a cell. -/
theorem centreV_apply : centreV x0 x1 (ix3 r a b)
    = five * Scalar.select (firstV x0 x1 (ix3 r a b))
        (∑ k : Fin 2, (x1 (ix4 r a b (at' 0 2 (by omega) k)) - x0 (ix4 r a b (at' 0 2 (by omega) k)))
          * (x1 (ix4 r a b (at' 0 2 (by omega) k)) - x0 (ix4 r a b (at' 0 2 (by omega) k))))
        (∑ k : Fin 2, (x1 (ix4 r a b (at' 5 2 (by omega) k)) - x0 (ix4 r a b (at' 5 2 (by omega) k)))
          * (x1 (ix4 r a b (at' 5 2 (by omega) k)) - x0 (ix4 r a b (at' 5 2 (by omega) k)))) := by
  simp only [centreV, k0_pay27, mulf_apply, broadcast_apply, select_apply, lastSum_apply (N := 256), subf_apply,
    slice_apply (N := 256)]
  rfl

/-- The first box's extent term at a cell. -/
theorem pay28_apply : k0_pay28 (F := Ideal) x0 x1 (ix3 r a b)
    = ∑ k : Fin 2, (Ideal.sqrt (x1 (ix4 r a b (at' 2 2 (by omega) k))) - Ideal.sqrt (x0 (ix4 r a b (at' 2 2 (by omega) k))))
        * (Ideal.sqrt (x1 (ix4 r a b (at' 2 2 (by omega) k))) - Ideal.sqrt (x0 (ix4 r a b (at' 2 2 (by omega) k)))) := by
  simp only [k0_pay28, lastSum_apply (N := 256), mulf_apply, subf_apply, sqrt_apply, slice_apply (N := 256)]

/-- The square roots of the second box's labelled extents at a cell. -/
theorem pay29_apply (k : Fin 2) : k0_pay29 (F := Ideal) x1 (ix4 r a b k) = Ideal.sqrt (x1 (ix4 r a b (at' 7 2 (by omega) k))) := by
  simp only [k0_pay29, sqrt_apply, slice_apply (N := 256)]
/-- The square roots of the second box's predicted extents at a cell. -/
theorem pay30_apply (k : Fin 2) : k0_pay30 (F := Ideal) x0 (ix4 r a b k) = Ideal.sqrt (x0 (ix4 r a b (at' 7 2 (by omega) k))) := by
  simp only [k0_pay30, sqrt_apply, slice_apply (N := 256)]

end

/-- At the extended reals the stored value's one entry is the running total's entry plus the loss of the block's
    256 × 7 × 7 cells. -/
theorem blockStore_apply (x0 x1 : Vec Ideal S256x7x7x30 .f32) (acc : Vec Ideal S1x1 .f32) :
    blockStore (F := Ideal) x0 x1 acc (ix2 0 0) = acc (ix2 0 0) + lossSum (N := 256) x0 x1 := by
  rw [blockStore_eq, pay31_apply]
  refine congrArg (acc (ix2 0 0) + ·) ?_
  refine Finset.sum_congr rfl fun r _ => Finset.sum_congr rfl fun a _ => Finset.sum_congr rfl fun b _ => ?_
  simp only [pay3_apply, firstV_apply, iou1V_apply, iou2V_apply, centreV_apply, pay28_apply, pay29_apply, pay30_apply]
  rfl

end Cert.KernelIdeal.Block

end
-- ==== Proof.KernelPieces.lean ====
/-
  What the body leaves in the running total's block, case by case.

  The body has three control cases. At the first grid point it zeroes the running total, reads the zero back,
  and stores zero plus the block's loss. At a middle point it reads the running total the point before left and
  stores it plus the block's loss. At the last point it does the same and then stores that value scaled by the
  reciprocal of the number of images. Each store covers the whole [1, 1] block, so the last store is what the
  block holds; a load of the block after a covering store reads that store's value.
-/
import proofs.«130938_j8641474199685_2_alg».proof.Proof.Gen.KernelIdeal.Frame
import proofs.«130938_j8641474199685_2_alg».proof.Proof.KernelBlock
import Idealize.ShloMosaic.Lib.Pipeline.Value

set_option maxRecDepth 16384

noncomputable section

namespace Cert.KernelIdeal.Pieces

open Cert.KernelIdeal Cert.KernelIdeal.Gen Cert.KernelIdeal.Block
open Idealize.ShloMosaic Idealize.ShloMosaic.TcCoe Idealize.ShloMosaic.Tactic
open Idealize.SL Idealize.SL.Sem

variable {F : FTy → Type} [FloatOps F]

/-- The zero offsets of a rank-2 and of a rank-4 rectangle, as constant functions. -/
theorem zeros2 : (![0, 0] : Fin S1x1.rank → Nat) = fun _ => 0 := by
  funext a; match a with | ⟨0, _⟩ => rfl | ⟨1, _⟩ => rfl
theorem zeros4 : (![0, 0, 0, 0] : Fin S256x7x7x30.rank → Nat) = fun _ => 0 := by
  funext a; match a with | ⟨0, _⟩ => rfl | ⟨1, _⟩ => rfl | ⟨2, _⟩ => rfl | ⟨3, _⟩ => rfl

/-- A middle point: the running total plus the block's loss. -/
theorem out_middle (c : Dev nD) (i : grid0.Coords) (arg1 : Memref sig .tc .vmem S256x7x7x30 .f32) (harg1 : arg1.IsWhole) (arg2 : Memref sig .tc .vmem S256x7x7x30 .f32) (harg2 : arg2.IsWhole) (arg3 : Memref sig .tc .vmem S1x1 .f32) (harg3 : arg3.IsWhole) (hc0 : ¬cond0_0 i) (hc1 : ¬cond0_1 i)
    (x0 x1 : Vec F S256x7x7x30 .f32) (xo2 : Vec F S1x1 .f32) :
    out0_B_2 c i arg1 harg1 arg2 harg2 arg3 harg3 hc0 hc1 x0 x1 xo2 = blockStore x0 x1 xo2 := by
  unfold out0_B_2
  rw [View.read_writes_eq_canon _ _ _ (cover0_B_2 c i arg1 harg1 arg2 harg2 arg3 harg3 hc0 hc1 x0 x1 xo2)]
  unfold kernelRun0_B
  dsimp only
  sl_unfold_words
  rw [View.canon_unit_zero zeros2]
  simp only [View.readAt_eq_ld, harg1.read_unread, harg2.read_unread, harg3.read_unread,
    View.ld_unit_zero (S := S256x7x7x30) zeros4, View.ld_unit_zero (S := S1x1) zeros2]
  rfl

/-- The first point: zero plus the block's loss. -/
theorem out_first (c : Dev nD) (i : grid0.Coords) (arg1 : Memref sig .tc .vmem S256x7x7x30 .f32) (harg1 : arg1.IsWhole) (arg2 : Memref sig .tc .vmem S256x7x7x30 .f32) (harg2 : arg2.IsWhole) (arg3 : Memref sig .tc .vmem S1x1 .f32) (harg3 : arg3.IsWhole) (hc0 : cond0_0 i) (hc1 : ¬cond0_1 i)
    (x0 x1 : Vec F S256x7x7x30 .f32) :
    out0_A_2 c i arg1 harg1 arg2 harg2 arg3 harg3 hc0 hc1 x0 x1 = blockStore x0 x1 (k0_pay2 (F := F)) := by
  unfold out0_A_2
  rw [View.read_writes_eq_canon _ _ _ (cover0_A_2 c i arg1 harg1 arg2 harg2 arg3 harg3 hc0 hc1 x0 x1)]
  unfold kernelRun0_A
  dsimp only
  sl_unfold_words
  rw [View.canon_cons_unit_zero zeros2]
  simp only [View.readAt_eq_ld, harg1.read_unread, harg2.read_unread,
    View.ld_unit_zero (S := S256x7x7x30) zeros4, View.readCov_unit_zero (S := S1x1) (off := ![0, 0]) _ zeros2]
  rfl

/-- The last point: the running total plus the block's loss, scaled. -/
theorem out_last (c : Dev nD) (i : grid0.Coords) (arg1 : Memref sig .tc .vmem S256x7x7x30 .f32) (harg1 : arg1.IsWhole) (arg2 : Memref sig .tc .vmem S256x7x7x30 .f32) (harg2 : arg2.IsWhole) (arg3 : Memref sig .tc .vmem S1x1 .f32) (harg3 : arg3.IsWhole) (hc0 : ¬cond0_0 i) (hc1 : cond0_1 i)
    (x0 x1 : Vec F S256x7x7x30 .f32) (xo2 : Vec F S1x1 .f32) :
    out0_C_2 c i arg1 harg1 arg2 harg2 arg3 harg3 hc0 hc1 x0 x1 xo2 = k0_pay1 (blockStore x0 x1 xo2) := by
  unfold out0_C_2
  rw [View.read_writes_eq_canon _ _ _ (cover0_C_2 c i arg1 harg1 arg2 harg2 arg3 harg3 hc0 hc1 x0 x1 xo2)]
  unfold kernelRun0_C
  dsimp only
  sl_unfold_words
  rw [View.canon_cons_unit_zero zeros2]
  simp only [View.readAt_eq_ld, harg1.read_unread, harg2.read_unread, harg3.read_unread,
    View.ld_unit_zero (S := S256x7x7x30) zeros4, View.ld_unit_zero (S := S1x1) zeros2, View.readCov_unit_zero (S := S1x1) (off := ![0, 0]) _ zeros2]
  rfl

end Cert.KernelIdeal.Pieces

end
-- ==== Proof.KernelTotal.lean ====
/-
  The running total over the grid, and the result's array after the run.

  The kernel visits its 64 grid points in order. The [1, 1] block of the result is carried from point to point:
  the first point leaves the first block's loss in it, each later point adds its own block's loss, and the last
  point, after adding, scales the sum by the word of 2⁻¹⁴. Only the last point writes the block back to the
  result's array, whose one entry the block covers; so after the run the array holds that scaled sum.
-/
import proofs.«130938_j8641474199685_2_alg».proof.Proof.KernelPieces
import Idealize.ShloMosaic.Lib.Pipeline.Value
import Idealize.ShloMosaic.Lib.ValueIdx
import Idealize.ShloMosaic.PureOps.Ideal.Laws

set_option maxRecDepth 16384

noncomputable section

namespace Cert.KernelIdeal.Total

open Cert.KernelIdeal Cert.KernelIdeal.Gen Cert.KernelIdeal.Block Cert.KernelIdeal.Pieces Cert.Yolo
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The grid has 64 points. -/
theorem lt63 : 63 < cfg0.N := by have hN' : cfg0.N = 64 := N_0; omega

/-- A [1, 1] block has the one index (0, 0). -/
theorem idx11 (y : S1x1.Idx) : y = ix2 (0 : Fin 1) (0 : Fin 1) := by
  funext d
  match d with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- The loss of the block of 256 images that grid point `s` holds (zero past the grid). -/
def blockLoss (c : Dev nD) (s : ℕ) : EReal :=
  if h : s < cfg0.N then lossSum (N := 256) (iblk m c 0 ⟨s, h⟩) (iblk m c 1 ⟨s, h⟩) else 0

theorem blockLoss_of_lt (c : Dev nD) (t : Fin cfg0.N) :
    blockLoss m c t.val = lossSum (N := 256) (iblk m c 0 t) (iblk m c 1 t) := dif_pos t.isLt

/-- The zeroed running total's entry is zero. -/
theorem zero_apply : (k0_pay2 (F := Ideal)) (ix2 0 0) = 0 := Ideal.ofBits_zero_f32

/-- The last store's entry: the entry it scales, times the word of 2⁻¹⁴. -/
theorem scaled_apply (v : Vec Ideal S1x1 .f32) :
    k0_pay1 v (ix2 0 0) = v (ix2 0 0) * Ideal.ofBits .f32 0x38800000#32 := by
  unfold k0_pay1
  rw [shapeCast_self]
  rfl

/-- After grid point `n`, before the last one, the running total is the sum of the losses of blocks 0 … n. -/
theorem running (c : Dev nD) : ∀ (n : ℕ) (hn : n < cfg0.N), n < 63 →
    outsAt0 m c n hn (ix2 0 0) = ∑ s ∈ Finset.range (n + 1), blockLoss m c s
  | 0, hn, _ => by
    have e := outsAt0_A m c ⟨0, hn⟩ (Nat.zero_mod 64) (by show ¬(0 : ℕ) % 64 = 63; omega)
    rw [Finset.sum_range_one]
    refine (congrFun e (ix2 0 0)).trans ?_
    rw [out_first]
    refine (blockStore_apply _ _ _).trans ?_
    rw [zero_apply, zero_add, blockLoss_of_lt m c ⟨0, hn⟩]
  | n + 1, hn, h63 => by
    have e := outsAt0_B m c ⟨n + 1, hn⟩ (by show ¬(n + 1) % 64 = 0; omega) (by show ¬(n + 1) % 64 = 63; omega)
    refine (congrFun e (ix2 0 0)).trans ?_
    rw [out_middle]
    refine (blockStore_apply _ _ _).trans ?_
    rw [Finset.sum_range_succ, ← running c n (Nat.lt_of_succ_lt hn) (by omega), blockLoss_of_lt m c ⟨n + 1, hn⟩]
    rfl

/-- What the kernel's result holds: the sum of the 64 blocks' losses, times the word of 2⁻¹⁴. -/
def total (c : Dev nD) : EReal :=
  (∑ s ∈ Finset.range 64, blockLoss m c s) * Ideal.ofBits .f32 0x38800000#32

/-- After the last grid point the block holds the total. -/
theorem last_out (c : Dev nD) (hn : 63 < cfg0.N) : outsAt0 m c 63 hn (ix2 0 0) = total m c := by
  have e := outsAt0_C m c ⟨63, hn⟩ (by show ¬(63 : ℕ) % 64 = 0; omega) (by show (63 : ℕ) % 64 = 63; omega)
  refine (congrFun e (ix2 0 0)).trans ?_
  rw [out_last, scaled_apply]
  unfold total
  refine congrArg (· * _) ?_
  refine (blockStore_apply _ _ _).trans ?_
  rw [Finset.sum_range_succ, ← running m c 62 (Nat.lt_trans (by omega) hn) (by omega), blockLoss_of_lt m c ⟨63, hn⟩]
  rfl

/-- Every index of the result's [1, 1] array lies in the block any grid point names: the block index is (0, 0). -/
theorem mem_blk (t : Fin cfg0.N) (i : S1x1.Idx) : i ∈ ((cfg0.win 2).blk t).view.set := by
  show i ∈ ((View.whole main_v0).slice (win0_2.rect t)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- What the one writing-back point (the last) writes back is the block of the constant array at the total. -/
theorem flushed_last (c : Dev nD) (t : Fin cfg0.N) (hf : (cfg0.win 2).flush t = true) :
    (dats m 0 c).flushed 2 t = ((cfg0.win 2).blk t).view.read (Elt Ideal) (fun _ => total m c) := by
  have h63 : t.val % 64 = 63 := (flush0_2 t).mp hf
  have hN : t.val < 64 := lt_of_lt_of_eq t.isLt N_0
  obtain rfl : t = ⟨63, lt63⟩ := Fin.ext (by show t.val = 63; omega)
  show (cfg0.win 2).cut (grid0.coords _) ((dats m 0 c).after 2 _) = _
  rw [after0_2]
  funext y
  show outsAt0 m c 63 _ y = total m c
  rw [idx11 y]
  exact last_out m c _

/-- The result's array after the run holds the total. -/
theorem final (c : Dev nD) : (dats m 0 c).arrAt 2 cfg0.N = fun _ => total m c :=
  (dats m 0 c).arrAt_eq_of_cover 2 _ (flushed_last m c)
    (fun i => ⟨⟨63, lt63⟩, (flush0_2 _).mpr rfl, mem_blk _ i⟩)

end Cert.KernelIdeal.Total

end
-- ==== Proof.KernelRun.lean ====
/-
  The kernel program's run, with its result named.

  After the region the program views the result's [1, 1] array as a scalar; that view reads the array's one
  entry. So every weakly fair execution of the kernel program ends with the scalar result at the scaled sum of
  the blocks' losses, and with the two argument arrays as they were.
-/
import proofs.«130938_j8641474199685_2_alg».proof.Proof.KernelTotal
import Idealize.ShloMosaic.Lib.StableHlo.Run

set_option maxRecDepth 16384

noncomputable section

namespace Cert.KernelIdeal.Total

open Cert.KernelIdeal Cert.KernelIdeal.Gen Cert.KernelIdeal.Block Cert.KernelIdeal.Pieces Cert.Yolo
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- After the region the program views the [1, 1] array as a scalar: the result is the total. -/
theorem tail_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_v0) = fun _ => total m c from
    (Pipeline.withArrays_arr spec0 launch0.win.arr_inj c _ _ 2).trans (final m c)]
  rfl

/-- The kernel's run: every weakly fair execution ends with the result at the total and the arguments unchanged. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.LibSumAlgebra.lean ====
/-
  Sum algebra on the extended reals (and on any additive commutative monoid) used to join a
  tiled sum to a whole-matrix sum.

  Two facts, neither of which needs any finiteness:

  * n equal summands t * c with n * c = 1 add up to t, for EVERY extended real t (also the two
    infinities): a sum of n equal terms is n • (t * c) = (n : EReal) * (t * c), and
    multiplication on the extended reals is commutative and associative, so this is
    t * (n * c) = t * 1.  No distributivity is used.

  * a sum over an index range of length m * n is the sum over its m consecutive blocks of
    length n of the sums over each block; twice, for a matrix cut into square tiles.  This holds
    in any additive commutative monoid, because a finite sum may be reindexed along a bijection
    and the order of two finite sums may be exchanged.
-/
import Idealize.ShloMosaic.PureOps.Ideal

noncomputable section

namespace Cert.LibSumAlgebra

open scoped BigOperators

/-! ## Equal summands whose scale undoes their number -/

/-- Over a finite index type ι, the constant summand t * c adds up to t as soon as
    (card ι) * c = 1 in the extended reals.  True for every t, the infinities included:
    only commutativity and associativity of the product are used. -/
theorem sum_const_mul_eq {ι : Type*} [Fintype ι] (t c : EReal)
    (h : ((Fintype.card ι : ℕ) : EReal) * c = 1) :
    ∑ _i : ι, t * c = t := by
  rw [Finset.sum_const, Finset.card_univ, EReal.nsmul_eq_mul, mul_left_comm, h, mul_one]

/-- The same over two nested finite sums: card ι * card κ equal summands. -/
theorem sum_sum_const_mul_eq {ι κ : Type*} [Fintype ι] [Fintype κ] (t c : EReal)
    (h : (((Fintype.card ι * Fintype.card κ : ℕ)) : EReal) * c = 1) :
    ∑ _i : ι, ∑ _j : κ, t * c = t := by
  rw [← Finset.sum_product', Finset.univ_product_univ]
  exact sum_const_mul_eq (ι := ι × κ) t c (by rw [Fintype.card_prod]; exact h)

/-- 1024 * 2^(-10) = 1 in the extended reals. -/
theorem nat1024_mul_two_pow_neg_ten :
    ((1024 : ℕ) : EReal) * (((2 : ℝ) ^ (-10 : Int) : ℝ) : EReal) = 1 := by
  have h : ((1024 : ℕ) : EReal) = ((1024 : ℝ) : EReal) := by norm_cast
  rw [h, ← EReal.coe_mul]
  norm_num

/-- 1024 copies of t * 2^(-10), indexed by Fin 1024, add up to t. -/
theorem sum_fin1024_mul_two_pow_neg_ten (t : EReal) :
    ∑ _i : Fin 1024, t * (((2 : ℝ) ^ (-10 : Int) : ℝ) : EReal) = t :=
  sum_const_mul_eq t _ (by rw [Fintype.card_fin]; exact nat1024_mul_two_pow_neg_ten)

/-- 8 × 128 copies of t * 2^(-10), as two nested sums, add up to t. -/
theorem sum_fin8_fin128_mul_two_pow_neg_ten (t : EReal) :
    ∑ _p : Fin 8, ∑ _q : Fin 128, t * (((2 : ℝ) ^ (-10 : Int) : ℝ) : EReal) = t :=
  sum_sum_const_mul_eq t _ (by
    rw [Fintype.card_fin, Fintype.card_fin]; exact nat1024_mul_two_pow_neg_ten)

/-! ## A sum over a range as the sum over its consecutive blocks -/

/-- Position r of block b, of m blocks of length n, lies in the range of length m * n. -/
theorem block_lt {m n : ℕ} (b : Fin m) (r : Fin n) : b.val * n + r.val < m * n := by
  have h1 : b.val * n + r.val < (b.val + 1) * n := by
    rw [Nat.add_mul, Nat.one_mul]; exact Nat.add_lt_add_left r.isLt _
  exact lt_of_lt_of_le h1 (Nat.mul_le_mul_right n b.isLt)

variable {M : Type*} [AddCommMonoid M]

/-- A sum over Fin (m * n) is the sum over the m blocks of the sum over each block's n
    positions: position r of block b is the index b * n + r. -/
theorem sum_blocks (m n : ℕ) (g : Fin (m * n) → M) :
    ∑ b : Fin m, ∑ r : Fin n, g ⟨b.val * n + r.val, block_lt b r⟩ = ∑ i : Fin (m * n), g i := by
  rw [← Finset.sum_product', Finset.univ_product_univ]
  refine Fintype.sum_equiv finProdFinEquiv _ _ (fun x => ?_)
  refine congrArg g (Fin.ext ?_)
  show x.1.val * n + x.2.val = x.2.val + n * x.1.val
  rw [Nat.mul_comm, Nat.add_comm]

/-- The same for the literal sizes of a range of 4096 cut into 8 blocks of 512. -/
theorem sum_blocks_8_512 (g : Fin 4096 → M) :
    ∑ b : Fin 8, ∑ r : Fin 512, g ⟨b.val * 512 + r.val, block_lt (m := 8) (n := 512) b r⟩
      = ∑ i : Fin 4096, g i :=
  sum_blocks 8 512 g

/-- A 4096 × 4096 matrix summed tile by tile over its 8 × 8 grid of 512 × 512 tiles is the
    sum of all its entries: entry (r, c) of tile (bi, bj) is entry
    (bi * 512 + r, bj * 512 + c) of the matrix. -/
theorem sum_tiles_8_512 (f : Fin 4096 → Fin 4096 → M) :
    ∑ bi : Fin 8, ∑ bj : Fin 8, ∑ r : Fin 512, ∑ c : Fin 512,
        f ⟨bi.val * 512 + r.val, block_lt (m := 8) (n := 512) bi r⟩
          ⟨bj.val * 512 + c.val, block_lt (m := 8) (n := 512) bj c⟩
      = ∑ i : Fin 4096, ∑ j : Fin 4096, f i j := by
  rw [← sum_blocks_8_512 (fun i => ∑ j : Fin 4096, f i j)]
  refine Finset.sum_congr rfl fun bi _ => ?_
  rw [Finset.sum_comm]
  refine Finset.sum_congr rfl fun r _ => ?_
  exact sum_blocks_8_512 (fun j => f ⟨bi.val * 512 + r.val, block_lt (m := 8) (n := 512) bi r⟩ j)

end Cert.LibSumAlgebra

end
-- ==== Proof.KernelWhole.lean ====
/-
  From the 64 blocks to the whole arrays.

  Grid point t stages images 256 t … 256 t + 255 of the predictions and of the labels, whole along the other
  axes. So a cell's rows in block t are the rows of the whole arrays at image 256 t + r, the loss of block t is
  the loss of those 256 images, and — a sum over 64 · 256 indices being the sum over its 64 consecutive blocks of
  256 — the blocks' losses add up to the loss of all 16384 images. No finiteness is used: only that finite sums
  may be regrouped.
-/
import proofs.«130938_j8641474199685_2_alg».proof.Proof.KernelTotal
import proofs.«130938_j8641474199685_2_alg».proof.Proof.LibSumAlgebra

set_option maxRecDepth 16384

noncomputable section

namespace Cert.KernelIdeal.Total

open Cert.KernelIdeal Cert.KernelIdeal.Gen Cert.KernelIdeal.Block Cert.KernelIdeal.Pieces Cert.Yolo
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The printed index maps of the two input windows, decided over the grid: grid point `t` names block `t` along
    the images and block 0 along every other axis. -/
theorem in_index : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- Image `r` of block `t` is image `256 t + r` of the whole array. -/
theorem image_lt (t : Fin cfg0.N) (r : Fin 256) : t.val * 256 + r.val < 16384 := by
  have hN : t.val < 64 := lt_of_lt_of_eq t.isLt N_0
  have := r.isLt
  omega

/-- The block of predictions at grid point `t`, read at a cell's entry: the whole array at image `256 t + r`. -/
theorem preds_block_apply (c : Dev nD) (t : Fin cfg0.N) (r : Fin 256) (a b : Fin 7) (k : Fin 30) :
    iblk m c 0 t (ix4 r a b k) = m ((c : Thread nD τ).loc main_arg0) (ix4 ⟨t.val * 256 + r.val, image_lt t r⟩ a b k) := by
  show V m c main_arg0 (((cfg0.win 0).blk t).view.emb (ix4 r a b k)) = V m c main_arg0 (ix4 ⟨t.val * 256 + r.val, image_lt t r⟩ a b k)
  refine congrArg _ (funext fun d => Fin.ext ?_)
  obtain ⟨e0, e1, e2, e3, -⟩ := in_index t
  match d with
  | ⟨0, _⟩ => show win0_0.index t (0 : Fin 4) * 256 + 1 * r.val = t.val * 256 + r.val; rw [e0]; omega
  | ⟨1, _⟩ => show win0_0.index t (1 : Fin 4) * 7 + 1 * a.val = a.val; rw [e1]; omega
  | ⟨2, _⟩ => show win0_0.index t (2 : Fin 4) * 7 + 1 * b.val = b.val; rw [e2]; omega
  | ⟨3, _⟩ => show win0_0.index t (3 : Fin 4) * 30 + 1 * k.val = k.val; rw [e3]; omega

/-- The block of labels likewise. -/
theorem labels_block_apply (c : Dev nD) (t : Fin cfg0.N) (r : Fin 256) (a b : Fin 7) (k : Fin 30) :
    iblk m c 1 t (ix4 r a b k) = m ((c : Thread nD τ).loc main_arg1) (ix4 ⟨t.val * 256 + r.val, image_lt t r⟩ a b k) := by
  show V m c main_arg1 (((cfg0.win 1).blk t).view.emb (ix4 r a b k)) = V m c main_arg1 (ix4 ⟨t.val * 256 + r.val, image_lt t r⟩ a b k)
  refine congrArg _ (funext fun d => Fin.ext ?_)
  obtain ⟨-, -, -, -, e0, e1, e2, e3⟩ := in_index t
  match d with
  | ⟨0, _⟩ => show win0_1.index t (0 : Fin 4) * 256 + 1 * r.val = t.val * 256 + r.val; rw [e0]; omega
  | ⟨1, _⟩ => show win0_1.index t (1 : Fin 4) * 7 + 1 * a.val = a.val; rw [e1]; omega
  | ⟨2, _⟩ => show win0_1.index t (2 : Fin 4) * 7 + 1 * b.val = b.val; rw [e2]; omega
  | ⟨3, _⟩ => show win0_1.index t (3 : Fin 4) * 30 + 1 * k.val = k.val; rw [e3]; omega

/-- So the loss of block `t` is the loss of images `256 t … 256 t + 255` of the whole arrays. -/
theorem blockLoss_eq (c : Dev nD) (t : Fin cfg0.N) :
    blockLoss m c t.val = ∑ r : Fin 256, ∑ a : Fin 7, ∑ b : Fin 7,
      cellAt (N := 16384) (m ((c : Thread nD τ).loc main_arg0)) (m ((c : Thread nD τ).loc main_arg1)) ⟨t.val * 256 + r.val, image_lt t r⟩ a b := by
  rw [blockLoss_of_lt]
  unfold lossSum
  refine Finset.sum_congr rfl fun r _ => Finset.sum_congr rfl fun a _ => Finset.sum_congr rfl fun b _ => ?_
  unfold cellAt
  have h0 : rowAt (N := 256) (iblk m c 0 t) r a b = rowAt (N := 16384) (m ((c : Thread nD τ).loc main_arg0)) ⟨t.val * 256 + r.val, image_lt t r⟩ a b :=
    funext fun k => preds_block_apply m c t r a b k
  have h1 : rowAt (N := 256) (iblk m c 1 t) r a b = rowAt (N := 16384) (m ((c : Thread nD τ).loc main_arg1)) ⟨t.val * 256 + r.val, image_lt t r⟩ a b :=
    funext fun k => labels_block_apply m c t r a b k
  rw [h0, h1]

/-- The 64 blocks of 256 images are the 16384 images: the blocks' losses add up to the whole arrays' loss. -/
theorem sum_blockLoss (c : Dev nD) :
    ∑ s ∈ Finset.range 64, blockLoss m c s
      = lossSum (N := 16384) (m ((c : Thread nD τ).loc main_arg0)) (m ((c : Thread nD τ).loc main_arg1)) := by
  rw [Finset.sum_range]
  have hN : cfg0.N = 64 := N_0
  have step : ∀ t : Fin 64, blockLoss m c t.val = ∑ r : Fin 256, ∑ a : Fin 7, ∑ b : Fin 7,
      cellAt (N := 16384) (m ((c : Thread nD τ).loc main_arg0)) (m ((c : Thread nD τ).loc main_arg1))
        ⟨t.val * 256 + r.val, Cert.LibSumAlgebra.block_lt (m := 64) (n := 256) t r⟩ a b :=
    fun t => blockLoss_eq m c ⟨t.val, by omega⟩
  rw [Finset.sum_congr rfl fun t _ => step t]
  exact Cert.LibSumAlgebra.sum_blocks 64 256 (fun i : Fin (64 * 256) => ∑ a : Fin 7, ∑ b : Fin 7,
    cellAt (N := 16384) (m ((c : Thread nD τ).loc main_arg0)) (m ((c : Thread nD τ).loc main_arg1)) i a b)

/-- The kernel's total in closed form: the whole arrays' loss times the word of 2⁻¹⁴. -/
theorem total_eq (c : Dev nD) :
    total m c = lossSum (N := 16384) (m ((c : Thread nD τ).loc main_arg0)) (m ((c : Thread nD τ).loc main_arg1)) * Ideal.ofBits .f32 0x38800000#32 := by
  unfold total
  rw [sum_blockLoss]

end Cert.KernelIdeal.Total

end
-- ==== Proof.Consts.lean ====
/-
  The two constants by which the programs normalise, as the extended reals their words denote, and the one law
  that joins them: the kernel multiplies the total by the word of 2⁻¹⁴ = 1/16384, the reference divides it by the
  word of 16384. Dividing by a nonzero real is multiplying by its reciprocal on every extended real, the
  infinities included, so the two agree whatever the total is.
-/
import Idealize.ShloMosaic.PureOps.Ideal

noncomputable section

namespace Cert.Yolo

open Idealize.ShloMosaic

/-- The word 0x46800000 denotes 16384. -/
theorem ofBits_16384 : Ideal.ofBits .f32 0x46800000#32 = ((16384 : ℝ) : EReal) := by
  simp [Ideal.ofBits, Ideal.ieee, -EReal.coe_mul]; norm_num

/-- The word 0x38800000 denotes 1/16384. -/
theorem ofBits_inv_16384 : Ideal.ofBits .f32 0x38800000#32 = ((1 / 16384 : ℝ) : EReal) := by
  simp [Ideal.ofBits, Ideal.ieee, -EReal.coe_mul]; norm_num

/-- Scaling by the word of 1/16384 is dividing by the word of 16384, for every extended real. -/
theorem scale_eq_div (L : EReal) :
    L * Ideal.ofBits .f32 0x38800000#32 = Ideal.div L (Ideal.ofBits .f32 0x46800000#32) := by
  rw [ofBits_16384, ofBits_inv_16384, Ideal.div_coe (by norm_num : (16384 : ℝ) ≠ 0)]

end Cert.Yolo

end
-- ==== Proof.lean ====
/-
  A scalar detection loss, computed two ways, is one function of its arguments on the extended reals.

  Both programs take an array of predictions and an array of labels, each of 16384 images by a 7 × 7 grid of cells by
  30 numbers per cell, and form for every cell the same loss (Proof/Cell.lean: `cell`) by the same exact operations
  in the same order. They differ in how the cells are added up and in how the total is normalised:
    · the kernel walks 64 blocks of 256 images, sums each block's cells one axis at a time, carries a running total
      from block to block, and multiplies the total by the word of 2⁻¹⁴ at the last block;
    · the reference sums all the cells at once and divides by the word of 16384.
  Finite sums on the extended reals may be regrouped freely (addition is commutative and associative there, the
  infinities included), and dividing by a nonzero real is multiplying by its reciprocal on every extended real; so the
  two results agree for all inputs, and the precondition (finite inputs) is never opened.

  The kernel's side: Proof/KernelBlock.lean (what one grid point adds), Proof/KernelPieces.lean (what each control case
  of the body leaves), Proof/KernelTotal.lean (the running total over the grid and the result's array),
  Proof/KernelWhole.lean (the 64 blocks are the whole arrays), Proof/KernelRun.lean (the program's run with its result
  named). The reference's side: Proof/RefValue.lean over the reference's run. Proof/Consts.lean joins the two
  normalisations. The idealised kernel is the kernel's own text read at exact values: nothing was rewritten, so there
  is nothing to preserve.
-/
import proofs.«130938_j8641474199685_2_alg».proof.Defs
import proofs.«130938_j8641474199685_2_alg».proof.Proof.Gen.Kernel
import proofs.«130938_j8641474199685_2_alg».proof.Proof.Gen.Kernel.Frame
import proofs.«130938_j8641474199685_2_alg».proof.Proof.Gen.KernelIdeal
import proofs.«130938_j8641474199685_2_alg».proof.Proof.Gen.KernelIdeal.Frame
import proofs.«130938_j8641474199685_2_alg».proof.Proof.Gen.ReferenceIdeal
import proofs.«130938_j8641474199685_2_alg».proof.Proof.Gen.Pre_finite_inputs
import proofs.«130938_j8641474199685_2_alg».proof.Proof.RefValue
import proofs.«130938_j8641474199685_2_alg».proof.Proof.KernelRun
import proofs.«130938_j8641474199685_2_alg».proof.Proof.KernelWhole
import proofs.«130938_j8641474199685_2_alg».proof.Proof.Consts
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at exact values. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its reading at exact values. -/
theorem preserves : Cert.preserves_Kernel_KernelIdeal := trivial

/-- From memories that agree on the two arguments both programs end with the same scalar: the loss summed over all
    cells of all images, over 16384 — the kernel's product with the word of 1/16384 being the reference's quotient by
    the word of 16384. -/
theorem algebraic : Cert.algebraic_KernelIdeal_ReferenceIdeal := by
  intro m ρ m' ρ' _ hagree
  refine ⟨fun c => fun _ => Cert.KernelIdeal.Total.total m c, Cert.KernelIdeal.Total.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v234 m' c = fun _ => Cert.KernelIdeal.Total.total m c
  rw [Cert.ReferenceIdeal.ReadP.val_main_v234_eq, Cert.ReferenceIdeal.RefValue.ref_value, (hagree c).1, (hagree c).2,
    Cert.KernelIdeal.Total.total_eq, Cert.Yolo.scale_eq_div]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
